-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S64x500 : Shape := ⟨2, ![64, 500]⟩
abbrev S10x192 : Shape := ⟨2, ![10, 192]⟩
abbrev S600000 : Shape := ⟨1, ![600000]⟩
abbrev S1200000 : Shape := ⟨1, ![1200000]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S64x500 : S_.BroadcastsInDim S64x500 (![] : Fin 0 → Fin S64x500.rank)
  reducesTo_S64x500_S_d0_1 : S64x500.ReducesTo [0, 1] S_
  bcast_S_S10x192 : S_.BroadcastsInDim S10x192 (![] : Fin 0 → Fin S10x192.rank)
  reducesTo_S10x192_S_d0_1 : S10x192.ReducesTo [0, 1] S_
  bcast_S_S600000 : S_.BroadcastsInDim S600000 (![] : Fin 0 → Fin S600000.rank)
  reducesTo_S600000_S_d0 : S600000.ReducesTo [0] S_
  bcast_S_S1200000 : S_.BroadcastsInDim S1200000 (![] : Fin 0 → Fin S1200000.rank)
  reducesTo_S1200000_S_d0 : S1200000.ReducesTo [0] S_

variable [Facts]

def fn_part1 {F : FTy → Type} [FloatOps F] (main_arg8 : FVec F S1200000 .f32) (main_v13 : IVec S_ 1) (main_v16 : IVec S600000 1) : IVec S_ 1 :=
  let main_c_5 : IVec S_ 1 := constantI S_ 1 1#1
  let main_v17 : IVec S_ 1 := (fun x v => Host.reduce IntOp.andi x v reducesTo_S600000_S_d0 h_S_) main_v16 main_c_5
  let main_v18 : IVec S_ 1 := andi main_v13 main_v17
  let main_v19 : FVec F S1200000 .f32 := Host.absf main_arg8
  let main_cst_6 : FVec F S_ .f32 := constant S_ .f32 0x7F800000#32
  let main_v20 : FVec F S1200000 .f32 := broadcastInDim S1200000 ![] bcast_S_S1200000 main_cst_6
  let main_v21 : IVec S1200000 1 := cmpf .olt main_v19 main_v20
  let main_c_7 : IVec S_ 1 := constantI S_ 1 1#1
  let main_v22 : IVec S_ 1 := (fun x v => Host.reduce IntOp.andi x v reducesTo_S1200000_S_d0 h_S_) main_v21 main_c_7
  let main_v23 : IVec S_ 1 := andi main_v18 main_v22
  main_v23

def fn {F : FTy → Type} [FloatOps F] (main_arg0 : FVec F S100000x500 .f32) (main_arg1 : FVec F S64x500 .f32) (main_arg2 : FVec F S10x192 .f32) (main_arg3 : IVec S600000 32) (main_arg4 : IVec S600000 32) (main_arg5 : FVec F S600000 .f32) (main_arg6 : IVec S1200000 32) (main_arg7 : IVec S1200000 32) (main_arg8 : FVec F S1200000 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S64x500 .f32 := Host.absf main_arg1
  let main_cst_0 : FVec F S_ .f32 := constant S_ .f32 0x7F800000#32
  let main_v5 : FVec F S64x500 .f32 := broadcastInDim S64x500 ![] bcast_S_S64x500 main_cst_0
  let main_v6 : IVec S64x500 1 := cmpf .olt main_v4 main_v5
  let main_c_1 : IVec S_ 1 := constantI S_ 1 1#1
  let main_v7 : IVec S_ 1 := (fun x v => Host.reduce IntOp.andi x v reducesTo_S64x500_S_d0_1 h_S_) main_v6 main_c_1
  let main_v8 : IVec S_ 1 := andi main_v3 main_v7
  let main_v9 : FVec F S10x192 .f32 := Host.absf main_arg2
  let main_cst_2 : FVec F S_ .f32 := constant S_ .f32 0x7F800000#32
  let main_v10 : FVec F S10x192 .f32 := broadcastInDim S10x192 ![] bcast_S_S10x192 main_cst_2
  let main_v11 : IVec S10x192 1 := cmpf .olt main_v9 main_v10
  let main_c_3 : IVec S_ 1 := constantI S_ 1 1#1
  let main_v12 : IVec S_ 1 := (fun x v => Host.reduce IntOp.andi x v reducesTo_S10x192_S_d0_1 h_S_) main_v11 main_c_3
  let main_v13 : IVec S_ 1 := andi main_v8 main_v12
  let main_v14 : FVec F S600000 .f32 := Host.absf main_arg5
  let main_cst_4 : FVec F S_ .f32 := constant S_ .f32 0x7F800000#32
  let main_v15 : FVec F S600000 .f32 := broadcastInDim S600000 ![] bcast_S_S600000 main_cst_4
  let main_v16 : IVec S600000 1 := cmpf .olt main_v14 main_v15
  fn_part1 (F := F) main_arg8 main_v13 main_v16
-- ==== Kernel.lean ====
abbrev S100000x500 : Shape := ⟨2, ![100000, 500]⟩
abbrev S64x500 : Shape := ⟨2, ![64, 500]⟩
abbrev S10x192 : Shape := ⟨2, ![10, 192]⟩
abbrev S600000 : Shape := ⟨1, ![600000]⟩
abbrev S1200000 : Shape := ⟨1, ![1200000]⟩
abbrev S500x64 : Shape := ⟨2, ![500, 64]⟩
abbrev S100000x64 : Shape := ⟨2, ![100000, 64]⟩
abbrev S2000x500 : Shape := ⟨2, ![2000, 500]⟩
abbrev S2000x64 : Shape := ⟨2, ![2000, 64]⟩
abbrev S600000x1 : Shape := ⟨2, ![600000, 1]⟩
abbrev S_ : Shape := ⟨0, ![]⟩
abbrev S600000x64 : Shape := ⟨2, ![600000, 64]⟩
abbrev S1200000x1 : Shape := ⟨2, ![1200000, 1]⟩
abbrev S1200000x64 : Shape := ⟨2, ![1200000, 64]⟩
abbrev S10x64 : Shape := ⟨2, ![10, 64]⟩
abbrev S64x10 : Shape := ⟨2, ![64, 10]⟩
abbrev S100000x10 : Shape := ⟨2, ![100000, 10]⟩
abbrev S2000x10 : Shape := ⟨2, ![2000, 10]⟩

abbrev nBuf : Space → Nat
  | .hbm => 50
  | .vmem => 16
  | .smem => 0
  | _ => 0

abbrev bufTy : (tb : Table) → Fin (tcTables nBuf tb) → BufTy
  | .hbm, ⟨0, _⟩ => ⟨S100000x500, .f32⟩
  | .hbm, ⟨1, _⟩ => ⟨S64x500, .f32⟩
  | .hbm, ⟨2, _⟩ => ⟨S10x192, .f32⟩
  | .hbm, ⟨3, _⟩ => ⟨S600000, .i32⟩
  | .hbm, ⟨4, _⟩ => ⟨S600000, .i32⟩
  | .hbm, ⟨5, _⟩ => ⟨S600000, .f32⟩
  | .hbm, ⟨6, _⟩ => ⟨S1200000, .i32⟩
  | .hbm, ⟨7, _⟩ => ⟨S1200000, .i32⟩
  | .hbm, ⟨8, _⟩ => ⟨S1200000, .f32⟩
  | .hbm, ⟨9, _⟩ => ⟨S500x64, .f32⟩
  | .hbm, ⟨10, _⟩ => ⟨S100000x64, .f32⟩
  | .hbm, ⟨11, _⟩ => ⟨S600000x1, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x64, .f32⟩
  | .hbm, ⟨21, _⟩ => ⟨S600000x64, .f32⟩
  | .hbm, ⟨22, _⟩ => ⟨S600000x64, .f32⟩
  | .hbm, ⟨23, _⟩ => ⟨S_, .f32⟩
  | .hbm, ⟨24, _⟩ => ⟨S100000x64, .f32⟩
  | .hbm, ⟨25, _⟩ => ⟨S600000x1, .i32⟩
  | .hbm, ⟨26, _⟩ => ⟨S100000x64, .f32⟩
  | .hbm, ⟨27, _⟩ => ⟨S1200000x1, .f32⟩
  | .hbm, ⟨28, _⟩ => ⟨S_, .i32⟩
  | .hbm, ⟨29, _⟩ => ⟨S1200000, .i32⟩
  | .hbm, ⟨30, _⟩ => ⟨S1200000, .i1⟩
  | .hbm, ⟨31, _⟩ => ⟨S_, .i32⟩
  | .hbm, ⟨32, _⟩ => ⟨S1200000, .i32⟩
  | .hbm, ⟨33, _⟩ => ⟨S1200000, .i32⟩
  | .hbm, ⟨34, _⟩ => ⟨S1200000, .i32⟩
  | .hbm, ⟨35, _⟩ => ⟨S1200000x1, .i32⟩
  | .hbm, ⟨36, _⟩ => ⟨S1200000x64, .f32⟩
  | .hbm, ⟨37, _⟩ => ⟨S1200000x64, .f32⟩
  | .hbm, ⟨38, _⟩ => ⟨S1200000x64, .f32⟩
  | .hbm, ⟨39, _⟩ => ⟨S_, .f32⟩
  | .hbm, ⟨40, _⟩ => ⟨S100000x64, .f32⟩
  | .hbm, ⟨41, _⟩ => ⟨S1200000x1, .i32⟩
  | .hbm, ⟨42, _⟩ => ⟨S100000x64, .f32⟩
  | .hbm, ⟨43, _⟩ => ⟨S10x64, .f32⟩
  | .hbm, ⟨44, _⟩ => ⟨S64x10, .f32⟩
  | .hbm, ⟨45, _⟩ => ⟨S10x64, .f32⟩
  | .hbm, ⟨46, _⟩ => ⟨S64x10, .f32⟩
  | .hbm, ⟨47, _⟩ => ⟨S10x64, .f32⟩
  | .hbm, ⟨48, _⟩ => ⟨S64x10, .f32⟩
  | .hbm, ⟨49, _⟩ => ⟨S100000x10, .f32⟩
  | .local _ .vmem, ⟨0, _⟩ => ⟨S2000x500, .f32⟩
  | .local _ .vmem, ⟨1, _⟩ => ⟨S2000x500, .f32⟩
  | .local _ .vmem, ⟨2, _⟩ => ⟨S500x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S64x10, .f32⟩
  | .local _ .vmem, ⟨12, _⟩ => ⟨S64x10, .f32⟩
  | .local _ .vmem, ⟨13, _⟩ => ⟨S64x10, .f32⟩
  | .local _ .vmem, ⟨14, _⟩ => ⟨S2000x10, .f32⟩
  | .local _ .vmem, ⟨15, _⟩ => ⟨S2000x10, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x10 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S64x500_S500x64_1_0 : S64x500.Transposes [1, 0] S500x64
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S500x64_S500x64_0_0 : ∀ a, (![0, 0] : Fin 2 → Nat) a + S500x64.size a ≤ S500x64.size a
  h_S500x64 : 0 < S500x64.numel
  shapeCasts_S500x64_S500x64 : S500x64.ShapeCasts S500x64
  inb_S2000x64_S2000x64_0_0 : ∀ a, (![0, 0] : Fin 2 → Nat) a + S2000x64.size a ≤ S2000x64.size a
  h_S2000x64 : 0 < S2000x64.numel
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x64_0_1 : S600000x1.BroadcastsInDim S600000x64 (![0, 1] : Fin 2 → Fin S600000x64.rank)
  bcast_S_S100000x64 : S_.BroadcastsInDim S100000x64 (![] : Fin 0 → Fin S100000x64.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  slices_S10x192_S10x64_0_0 : S10x192.Slices ![0, 0] S10x64
  transposes_S10x64_S64x10_1_0 : S10x64.Transposes [1, 0] S64x10
  slices_S10x192_S10x64_0_64 : S10x192.Slices ![0, 64] S10x64
  slices_S10x192_S10x64_0_128 : S10x192.Slices ![0, 128] S10x64
  shapeCasts_S2000x64_S2000x64 : S2000x64.ShapeCasts S2000x64
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S2000x10_S2000x10_0_0 : ∀ a, (![0, 0] : Fin 2 → Nat) a + S2000x10.size a ≤ S2000x10.size a
  h_S2000x10 : 0 < S2000x10.numel
  dot_S2000x500_S500x64_S2000x64_1_0_0_1_n_n_wf : DotDims.WF S2000x500 S500x64 S2000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S2000x64_S64x10_S2000x10_1_0_0_1_n_n_wf : DotDims.WF S2000x64 S64x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S100000x500.size a
  hwx0_0 : ∀ i : grid0.Coords, EltTy.bits .f32 = 32 ∨ (Rect.block (s := S100000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x64.size a ≤ S500x64.size a
  hwx0_1 : ∀ i : grid0.Coords, EltTy.bits .f32 = 32 ∨ (Rect.block (s := S500x64) S500x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x10.size a ≤ S64x10.size a
  hwx1_3 : ∀ i : grid1.Coords, EltTy.bits .f32 = 32 ∨ (Rect.block (s := S64x10) S64x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x10.size a ≤ S64x10.size a
  hwx1_4 : ∀ i : grid1.Coords, EltTy.bits .f32 = 32 ∨ (Rect.block (s := S64x10) S64x10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x10.size a ≤ S64x10.size a
  hwx1_5 : ∀ i : grid1.Coords, EltTy.bits .f32 = 32 ∨ (Rect.block (s := S64x10) S64x10.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x10.size a ≤ S100000x10.size a
  hwx1_6 : ∀ i : grid1.Coords, EltTy.bits .f32 = 32 ∨ (Rect.block (s := S100000x10) S2000x10.size (cc1_transform_6 i) (hinb1_6 i)).WholeWords (EltTy.packing .f32)

variable [Facts₀]

def dot_S2000x500_S500x64_S2000x64_1_0_0_1_n_n : DotDims S2000x500 S500x64 S2000x64 where
  lhsContracting := [1]
  rhsContracting := [0]
  lhsNonContracting := [0]
  rhsNonContracting := [1]
  lhsBatch := []
  rhsBatch := []
  wf := dot_S2000x500_S500x64_S2000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S2000x64_S64x10_S2000x10_1_0_0_1_n_n : DotDims S2000x64 S64x10 S2000x10 where
  lhsContracting := [1]
  rhsContracting := [0]
  lhsNonContracting := [0]
  rhsNonContracting := [1]
  lhsBatch := []
  rhsBatch := []
  wf := dot_S2000x64_S64x10_S2000x10_1_0_0_1_n_n_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S500x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S64x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S64x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S64x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S2000x10.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x500 : Shape := ⟨2, ![100000, 500]⟩
abbrev S64x500 : Shape := ⟨2, ![64, 500]⟩
abbrev S10x192 : Shape := ⟨2, ![10, 192]⟩
abbrev S600000 : Shape := ⟨1, ![600000]⟩
abbrev S1200000 : Shape := ⟨1, ![1200000]⟩
abbrev S500x64 : Shape := ⟨2, ![500, 64]⟩
abbrev S100000x64 : Shape := ⟨2, ![100000, 64]⟩
abbrev S_ : Shape := ⟨0, ![]⟩
abbrev S600000x1 : Shape := ⟨2, ![600000, 1]⟩
abbrev S600000x64 : Shape := ⟨2, ![600000, 64]⟩
abbrev S1200000x1 : Shape := ⟨2, ![1200000, 1]⟩
abbrev S1200000x64 : Shape := ⟨2, ![1200000, 64]⟩
abbrev S100000x192 : Shape := ⟨2, ![100000, 192]⟩
abbrev S192x10 : Shape := ⟨2, ![192, 10]⟩
abbrev S100000x10 : Shape := ⟨2, ![100000, 10]⟩

abbrev nBuf : Space → Nat
  | .hbm => 49
  | .vmem => 0
  | .smem => 0
  | _ => 0

abbrev bufTy : (tb : Table) → Fin (tcTables nBuf tb) → BufTy
  | .hbm, ⟨0, _⟩ => ⟨S100000x500, .f32⟩
  | .hbm, ⟨1, _⟩ => ⟨S64x500, .f32⟩
  | .hbm, ⟨2, _⟩ => ⟨S10x192, .f32⟩
  | .hbm, ⟨3, _⟩ => ⟨S600000, .i32⟩
  | .hbm, ⟨4, _⟩ => ⟨S600000, .i32⟩
  | .hbm, ⟨5, _⟩ => ⟨S600000, .f32⟩
  | .hbm, ⟨6, _⟩ => ⟨S1200000, .i32⟩
  | .hbm, ⟨7, _⟩ => ⟨S1200000, .i32⟩
  | .hbm, ⟨8, _⟩ => ⟨S1200000, .f32⟩
  | .hbm, ⟨9, _⟩ => ⟨S500x64, .f32⟩
  | .hbm, ⟨10, _⟩ => ⟨S100000x64, .f32⟩
  | .hbm, ⟨11, _⟩ => ⟨S_, .f32⟩
  | .hbm, ⟨12, _⟩ => ⟨S100000x64, .f32⟩
  | .hbm, ⟨13, _⟩ => ⟨S100000x64, .f32⟩
  | .hbm, ⟨14, _⟩ => ⟨S600000x1, .f32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x64, .f32⟩
  | .hbm, ⟨24, _⟩ => ⟨S600000x64, .f32⟩
  | .hbm, ⟨25, _⟩ => ⟨S600000x64, .f32⟩
  | .hbm, ⟨26, _⟩ => ⟨S_, .f32⟩
  | .hbm, ⟨27, _⟩ => ⟨S100000x64, .f32⟩
  | .hbm, ⟨28, _⟩ => ⟨S600000x1, .i32⟩
  | .hbm, ⟨29, _⟩ => ⟨S100000x64, .f32⟩
  | .hbm, ⟨30, _⟩ => ⟨S1200000x1, .f32⟩
  | .hbm, ⟨31, _⟩ => ⟨S_, .i32⟩
  | .hbm, ⟨32, _⟩ => ⟨S1200000, .i32⟩
  | .hbm, ⟨33, _⟩ => ⟨S1200000, .i1⟩
  | .hbm, ⟨34, _⟩ => ⟨S_, .i32⟩
  | .hbm, ⟨35, _⟩ => ⟨S1200000, .i32⟩
  | .hbm, ⟨36, _⟩ => ⟨S1200000, .i32⟩
  | .hbm, ⟨37, _⟩ => ⟨S1200000, .i32⟩
  | .hbm, ⟨38, _⟩ => ⟨S1200000x1, .i32⟩
  | .hbm, ⟨39, _⟩ => ⟨S1200000x64, .f32⟩
  | .hbm, ⟨40, _⟩ => ⟨S1200000x64, .f32⟩
  | .hbm, ⟨41, _⟩ => ⟨S1200000x64, .f32⟩
  | .hbm, ⟨42, _⟩ => ⟨S_, .f32⟩
  | .hbm, ⟨43, _⟩ => ⟨S100000x64, .f32⟩
  | .hbm, ⟨44, _⟩ => ⟨S1200000x1, .i32⟩
  | .hbm, ⟨45, _⟩ => ⟨S100000x64, .f32⟩
  | .hbm, ⟨46, _⟩ => ⟨S100000x192, .f32⟩
  | .hbm, ⟨47, _⟩ => ⟨S192x10, .f32⟩
  | .hbm, ⟨48, _⟩ => ⟨S100000x10, .f32⟩
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_cst : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]

class Facts₀ : Prop where
  transposes_S64x500_S500x64_1_0 : S64x500.Transposes [1, 0] S500x64
  bcast_S_S100000x64 : S_.BroadcastsInDim S100000x64 (![] : Fin 0 → Fin S100000x64.rank)
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x64_0_1 : S600000x1.BroadcastsInDim S600000x64 (![0, 1] : Fin 2 → Fin S600000x64.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  concatenates_S100000x64_S100000x64_S100000x64_S100000x192_d1 : Shape.Concatenates [S100000x64, S100000x64, S100000x64] S100000x192 1
  transposes_S10x192_S192x10_1_0 : S10x192.Transposes [1, 0] S192x10
  dot_S100000x500_S500x64_S100000x64_1_0_0_1_n_n_wf : DotDims.WF S100000x500 S500x64 S100000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x192_S192x10_S100000x10_1_0_0_1_n_n_wf : DotDims.WF S100000x192 S192x10 S100000x10 [1] [0] [0] [1] [] []

variable [Facts₀]

def dot_S100000x500_S500x64_S100000x64_1_0_0_1_n_n : DotDims S100000x500 S500x64 S100000x64 where
  lhsContracting := [1]
  rhsContracting := [0]
  lhsNonContracting := [0]
  rhsNonContracting := [1]
  lhsBatch := []
  rhsBatch := []
  wf := dot_S100000x500_S500x64_S100000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x192_S192x10_S100000x10_1_0_0_1_n_n : DotDims S100000x192 S192x10 S100000x10 where
  lhsContracting := [1]
  rhsContracting := [0]
  lhsNonContracting := [0]
  rhsNonContracting := [1]
  lhsBatch := []
  rhsBatch := []
  wf := dot_S100000x192_S192x10_S100000x10_1_0_0_1_n_n_wf

class Facts : Prop extends Facts₀ where

variable [Facts]
-- ==== Proof.KernelRun.lean ====
/-
  The idealized kernel's run with its result named.

  The program is a stretch of host operations, the first region, a second stretch, the second region.  Every
  weakly fair execution terminates without a fault; at the end every unscoped buffer holds what the fold of
  the four segments over the launch memory says, in particular the result buffer, and the nine argument arrays
  are as launched.
-/
import proofs.«115325_j23390391894791_1_alg».proof.Proof.Gen.KernelIdeal.Frame

set_option maxRecDepth 16384

noncomputable section

namespace Cert.KernelValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the four segments: the result buffer ends at the last boundary's contents, the fold of the
    segments over the launch memory, and the argument arrays end as launched. -/
theorem run_out : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelValue

end
-- ==== Proof.LibMatmulRowCol.lean ====
/-
  A plain matrix product into a zero accumulator, read at an entry, at the ideal values.

  For any dimension numbers over an [M, K] left operand, a [K, N] right operand and an [M, N] result that
  contract the left operand's second axis against the right operand's first (stated as four coordinate facts
  about the dimension numbers' operand indices, which a literal record proves by unfolding), entry (p, c) of
  `matmul D none X W 0` is the sum over k of X p k · W k c. General in M, K, N and in both operand formats;
  nothing in it is specific to one kernel.
-/
import Idealize.ShloMosaic.Lib.ValueIdx
import Idealize.ShloMosaic.PureOps.Ideal.Laws

noncomputable section

namespace Cert.LibMatmul

open Idealize.ShloMosaic Idealize.ShloMosaic.ValueIdx

/-- For dimension numbers contracting the left operand's columns against the right operand's rows
    (the four coordinate facts hl0 … hr1 say so), entry (p, c) of the product into a zero accumulator
    is Σ_k X p k · W k c. -/
theorem matmul_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ φ₁) (W : FVec Ideal ⟨2, ![K, N]⟩ φ₂) (p : Fin M) (c : Fin N) :
    matmul D none X W (constant ⟨2, ![M, N]⟩ .f32 0x00000000#32) (ix2 p c)
      = ∑ k : Fin K, X (ix2 p k) * W (ix2 k c) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibMatmul

end
-- ==== Proof.HiddenBlock.lean ====
/-
  One block of the hidden layer, entry by entry.

  At a grid point the first kernel loads a [2000, 500] block of the features and the whole [500, 64] weight
  matrix, multiplies them into a zero accumulator and rectifies.  A change of float format is the identity on
  the extended reals, so entry (r, c) of what it stores is max(Σ_k x(r, k) · w(k, c), 0).
-/
import proofs.«115325_j23390391894791_1_alg».proof.Proof.Gen.KernelIdeal.Skeleton
import proofs.«115325_j23390391894791_1_alg».proof.Proof.LibMatmulRowCol
import Idealize.ShloMosaic.Lib.Pipeline.Value
import Idealize.ShloMosaic.Lib.ValueIdx
import Idealize.ShloMosaic.PureOps.Ideal.Laws

noncomputable section

namespace Cert.KernelValue

open Cert.KernelIdeal Cert.KernelIdeal.Gen Idealize.ShloMosaic Idealize.ShloMosaic.ValueIdx

/-- The [2000, 500] × [500, 64] product's dimension numbers contract the left columns with the right rows. -/
abbrev D0 : DotDims S2000x500 S500x64 S2000x64 := dot_S2000x500_S500x64_S2000x64_1_0_0_1_n_n

theorem D0_l0 (i : S2000x64.Idx) (q : D0.contr.Idx) : (D0.lhsIdx i q 0).val = (i 0).val := by
  unfold DotDims.lhsIdx
  rw [dif_neg (show ¬(0 : Fin S2000x500.rank) ∈ D0.lhsBatch by decide), dif_pos (show (0 : Fin S2000x500.rank) ∈ D0.lhsNonContracting by decide)]
  rfl
theorem D0_l1 (i : S2000x64.Idx) (q : D0.contr.Idx) : (D0.lhsIdx i q 1).val = (q ⟨0, by decide⟩).val :=
  D0.lhsIdx_val_of_single rfl i q
theorem D0_r0 (i : S2000x64.Idx) (q : D0.contr.Idx) : (D0.rhsIdx i q 0).val = (q ⟨0, by decide⟩).val :=
  D0.rhsIdx_val_of_single rfl i q
theorem D0_r1 (i : S2000x64.Idx) (q : D0.contr.Idx) : (D0.rhsIdx i q 1).val = (i 1).val := by
  unfold DotDims.rhsIdx
  rw [dif_neg (show ¬(1 : Fin S500x64.rank) ∈ D0.rhsBatch by decide), dif_pos (show (1 : Fin S500x64.rank) ∈ D0.rhsNonContracting by decide)]
  rfl

/-- Entry (r, c) of the block the first kernel stores: the rectified inner product of row r of the feature
    block with column c of the weights. -/
theorem hidden_block (x0 : Vec Ideal S2000x500 .f32) (x1 : Vec Ideal S500x64 .f32) (r : Fin 2000) (c : Fin 64) :
    k0_pay1 (F := Ideal) x0 x1 (ix2 r c) = max (∑ k : Fin 500, x0 (ix2 r k) * x1 (ix2 k c)) 0 := by
  unfold k0_pay1
  rw [shapeCast_self]
  refine (maximumf_apply _ _ _).trans ?_
  refine congrArg₂ max ?_ ?_
  · exact Cert.LibMatmul.matmul_rowcol D0 rfl rfl D0_l0 D0_l1 D0_r0 D0_r1 _ _ r c
  · exact Ideal.ofBits_zero_f32

end Cert.KernelValue

end
-- ==== Proof.Spec.lean ====
/-
  The function both programs compute, index by index, on the extended reals.

  A node feature matrix x [100000, 500] is mapped to hidden features h = max(x · W, 0) with W [500, 64]; two
  neighbourhood aggregates h1, h2 [100000, 64] of h are formed; and the result [100000, 10] is
  h · A + h1 · B + h2 · C for three [64, 10] matrices A, B, C, which are the three 64-column parts of one
  [10, 192] weight matrix, transposed.  This file states the hidden layer and the final projection entry by
  entry; nothing here mentions a program.
-/
import Idealize.ShloMosaic.PureOps.Ideal
import Idealize.ShloMosaic.Lib.ValueIdx

noncomputable section

namespace Cert.Spec

open Idealize.ShloMosaic Idealize.ShloMosaic.ValueIdx

/-- Entry (p, c) of the hidden layer: the rectified inner product of row p of x with column c of w. -/
def hiddenAt (x : (⟨2, ![100000, 500]⟩ : Shape).Idx → EReal) (w : (⟨2, ![500, 64]⟩ : Shape).Idx → EReal)
    (p : Fin 100000) (c : Fin 64) : EReal :=
  max (∑ k : Fin 500, x (ix2 p k) * w (ix2 k c)) 0

/-- The hidden layer max(x · w, 0) as an array. -/
def hidden (x : (⟨2, ![100000, 500]⟩ : Shape).Idx → EReal) (w : (⟨2, ![500, 64]⟩ : Shape).Idx → EReal) :
    (⟨2, ![100000, 64]⟩ : Shape).Idx → EReal :=
  fun i => hiddenAt x w (i 0) (i 1)

theorem hidden_ix2 (x : (⟨2, ![100000, 500]⟩ : Shape).Idx → EReal) (w : (⟨2, ![500, 64]⟩ : Shape).Idx → EReal)
    (p : Fin 100000) (c : Fin 64) : hidden x w (ix2 p c) = hiddenAt x w p c := rfl

/-- Entry (p, j) of the projection: the three inner products of row p of h, h1, h2 with column j of a, b, c,
    added in this order. -/
def projAt (h h1 h2 : (⟨2, ![100000, 64]⟩ : Shape).Idx → EReal) (a b c : (⟨2, ![64, 10]⟩ : Shape).Idx → EReal)
    (p : Fin 100000) (j : Fin 10) : EReal :=
  (∑ k : Fin 64, h (ix2 p k) * a (ix2 k j) + ∑ k : Fin 64, h1 (ix2 p k) * b (ix2 k j))
    + ∑ k : Fin 64, h2 (ix2 p k) * c (ix2 k j)

/-- The projection h · a + h1 · b + h2 · c as an array. -/
def proj (h h1 h2 : (⟨2, ![100000, 64]⟩ : Shape).Idx → EReal) (a b c : (⟨2, ![64, 10]⟩ : Shape).Idx → EReal) :
    (⟨2, ![100000, 10]⟩ : Shape).Idx → EReal :=
  fun i => projAt h h1 h2 a b c (i 0) (i 1)

theorem proj_ix2 (h h1 h2 : (⟨2, ![100000, 64]⟩ : Shape).Idx → EReal) (a b c : (⟨2, ![64, 10]⟩ : Shape).Idx → EReal)
    (p : Fin 100000) (j : Fin 10) : proj h h1 h2 a b c (ix2 p j) = projAt h h1 h2 a b c p j := rfl

/-- The [64, 500] first-layer weights read as their transpose [500, 64]. -/
def wT (w : (⟨2, ![64, 500]⟩ : Shape).Idx → EReal) : (⟨2, ![500, 64]⟩ : Shape).Idx → EReal :=
  fun i => w (ix2 (i 1) (i 0))

/-- The 64 columns of the [10, 192] output weights that start at column `off`, transposed to [64, 10]. -/
def wPart (off : Nat) (hoff : off + 64 ≤ 192) (w : (⟨2, ![10, 192]⟩ : Shape).Idx → EReal) :
    (⟨2, ![64, 10]⟩ : Shape).Idx → EReal :=
  fun i => w (ix2 (i 1) ⟨off + (i 0).val, by have := idx2_lt0 i; omega⟩)

end Cert.Spec

end
-- ==== Proof.HiddenArray.lean ====
/-
  The hidden layer as a whole array.

  The first kernel runs over 50 grid points; point t reads rows 2000·t … 2000·t + 1999 of the features and the
  whole weight matrix and writes rows 2000·t … 2000·t + 1999 of the result.  The 50 row blocks tile the
  [100000, 64] result, so after the region it holds max(x · w, 0) entry by entry, whatever the contents x, w
  of the two operand arrays when the region is entered.
-/
import proofs.«115325_j23390391894791_1_alg».proof.Proof.Gen.KernelIdeal.Frame
import proofs.«115325_j23390391894791_1_alg».proof.Proof.HiddenBlock
import proofs.«115325_j23390391894791_1_alg».proof.Proof.Spec
import Idealize.ShloMosaic.Lib.Pipeline.Value
import Idealize.ShloMosaic.Lib.ValueIdx

noncomputable section

namespace Cert.KernelValue

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The first region's index maps over its grid: the feature and result blocks move down with the point,
    the weights stay. -/
theorem idx_region0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A stored block against the whole-array function: if the feature block is rows 2000·tv … of x and the
    weight block is w, the block's entry j is the hidden layer's entry i = (2000·tv + j₀, j₁). -/
theorem hidden_point (X : (⟨2, ![100000, 500]⟩ : Shape).Idx → EReal) (Wt : (⟨2, ![500, 64]⟩ : Shape).Idx → EReal)
    (x0 : Vec Ideal S2000x500 .f32) (x1 : Vec Ideal S500x64 .f32) (tv : Nat)
    (hx0 : ∀ (r : Fin 2000) (k : Fin 500) (p : Fin 100000), p.val = tv * 2000 + r.val → x0 (ix2 r k) = X (ix2 p k))
    (hx1 : ∀ (k : Fin 500) (c : Fin 64), x1 (ix2 k c) = Wt (ix2 k c))
    (j : S2000x64.Idx) (i : (⟨2, ![100000, 64]⟩ : Shape).Idx)
    (hi0 : (i 0).val = tv * 2000 + (j 0).val) (hi1 : (i 1).val = (j 1).val) :
    k0_pay1 (F := Ideal) x0 x1 j = Cert.Spec.hidden X Wt i := by
  obtain ⟨r, c, rfl⟩ : ∃ (r : Fin 2000) (c : Fin 64), j = ix2 r c := ⟨j 0, j 1, eq_ix2 j⟩
  obtain ⟨p, c', rfl⟩ : ∃ (p : Fin 100000) (c' : Fin 64), i = ix2 p c' := ⟨i 0, i 1, eq_ix2 i⟩
  obtain rfl : c' = c := Fin.ext hi1
  rw [hidden_block, Cert.Spec.hidden_ix2]
  unfold Cert.Spec.hiddenAt
  refine congrArg (max · 0) (Finset.sum_congr rfl fun k _ => ?_)
  rw [hx0 r k p hi0, hx1 k c']

/-- What grid point t writes back is block t of the hidden layer of the two operand arrays. -/
theorem hidden_flushed (c : Dev nD) (t : Fin cfg0.N) :
    (dat0 V c).flushed 2 t = ((cfg0.win 2).blk t).view.read (Elt Ideal)
      (Cert.Spec.hidden (V c main_arg0) (V c main_v0)) := by
  show (cfg0.win 2).cut (grid0.coords t) ((dat0 V c).after 2 t) = _
  rw [after0_2]
  unfold out0_2
  rw [View.canon_unit_zero hz2]
  simp only [View.ld_unit_zero (S := S2000x500) hz2, View.ld_unit_zero (S := S500x64) hz2]
  obtain ⟨e00, e01, e10, e11, e20, e21⟩ := idx_region0 t
  funext j
  refine hidden_point (V c main_arg0) (V c main_v0) (iblk0 V c 0 t) (iblk0 V c 1 t) t.val ?_ ?_ j _ ?_ ?_
  · intro r k p hp
    unfold iblk0
    rw [View.read_apply]
    show V c main_arg0 _ = V c main_arg0 _
    refine congrArg (V c main_arg0) (funext fun a => Fin.ext ?_)
    match a with
    | ⟨0, _⟩ => show win0_0.index t (0 : Fin 2) * 2000 + 1 * r.val = p.val; rw [e00, hp]; omega
    | ⟨1, _⟩ => show win0_0.index t (1 : Fin 2) * 500 + 1 * k.val = k.val; rw [e01]; omega
  · intro k c'
    unfold iblk0
    rw [View.read_apply]
    show V c main_v0 _ = V c main_v0 _
    refine congrArg (V c main_v0) (funext fun a => Fin.ext ?_)
    match a with
    | ⟨0, _⟩ => show win0_1.index t (0 : Fin 2) * 500 + 1 * k.val = k.val; rw [e10]; omega
    | ⟨1, _⟩ => show win0_1.index t (1 : Fin 2) * 64 + 1 * c'.val = c'.val; rw [e11]; omega
  · show win0_2.index t (0 : Fin 2) * 2000 + 1 * (j 0).val = t.val * 2000 + (j 0).val; rw [e20]; omega
  · show win0_2.index t (1 : Fin 2) * 64 + 1 * (j 1).val = (j 1).val; rw [e21]; omega

/-- An index of the result is in point t's block iff each coordinate is in the block's range on its axis. -/
theorem mem_hidden_blk (t : Fin cfg0.N) (i : S100000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v1).slice (win0_2.rect t)).set ↔ _
  rw [View.set_slice_whole, Rect.mem_set_unit]
  exact Iff.rfl

/-- THE ARRAY the first region leaves: the hidden layer of the two operand arrays as the region found them. -/
theorem hidden_final (c : Dev nD) :
    (dat0 V c).arrAt 2 cfg0.N = Cert.Spec.hidden (V c main_arg0) (V c main_v0) :=
  (dat0 V c).arrAt_eq_of_cover 2 _ (fun t _ => hidden_flushed V c t) fun i => by
    have hi0 : (i 0).val < 100000 := (i 0).isLt
    have hi1 : (i 1).val < 64 := (i 1).isLt
    have hN : cfg0.N = 50 := N_0
    let t : Fin cfg0.N := ⟨(i 0).val / 2000, by rw [hN]; omega⟩
    obtain ⟨-, -, -, -, e20, e21⟩ := idx_region0 t
    refine ⟨t, flush0_2 t, ?_⟩
    rw [mem_hidden_blk]
    intro a
    match a with
    | ⟨0, _⟩ =>
      show win0_2.index t (0 : Fin 2) * 2000 ≤ (i 0).val ∧ (i 0).val < win0_2.index t (0 : Fin 2) * 2000 + 2000
      rw [e20]; show (i 0).val / 2000 * 2000 ≤ (i 0).val ∧ (i 0).val < (i 0).val / 2000 * 2000 + 2000; omega
    | ⟨1, _⟩ =>
      show win0_2.index t (1 : Fin 2) * 64 ≤ (i 1).val ∧ (i 1).val < win0_2.index t (1 : Fin 2) * 64 + 64
      rw [e21]; omega

end Cert.KernelValue

end
-- ==== Proof.ProjBlock.lean ====
/-
  One block of the final projection, entry by entry.

  At a grid point the second kernel loads [2000, 64] blocks of the hidden features and of their two aggregates
  and three whole [64, 10] weight matrices, forms the three products into zero accumulators and adds them,
  first and second, then the third.  A change of float format is the identity on the extended reals, so entry
  (r, j) of what it stores is (Σ_k h(r, k) · a(k, j) + Σ_k h1(r, k) · b(k, j)) + Σ_k h2(r, k) · c(k, j).
-/
import proofs.«115325_j23390391894791_1_alg».proof.Proof.Gen.KernelIdeal.Skeleton
import proofs.«115325_j23390391894791_1_alg».proof.Proof.LibMatmulRowCol
import Idealize.ShloMosaic.Lib.Pipeline.Value
import Idealize.ShloMosaic.Lib.ValueIdx
import Idealize.ShloMosaic.PureOps.Ideal.Laws

noncomputable section

namespace Cert.KernelValue

open Cert.KernelIdeal Cert.KernelIdeal.Gen Idealize.ShloMosaic Idealize.ShloMosaic.ValueIdx

/-- The [2000, 64] × [64, 10] product's dimension numbers contract the left columns with the right rows. -/
abbrev D1 : DotDims S2000x64 S64x10 S2000x10 := dot_S2000x64_S64x10_S2000x10_1_0_0_1_n_n

theorem D1_l0 (i : S2000x10.Idx) (q : D1.contr.Idx) : (D1.lhsIdx i q 0).val = (i 0).val := by
  unfold DotDims.lhsIdx
  rw [dif_neg (show ¬(0 : Fin S2000x64.rank) ∈ D1.lhsBatch by decide), dif_pos (show (0 : Fin S2000x64.rank) ∈ D1.lhsNonContracting by decide)]
  rfl
theorem D1_l1 (i : S2000x10.Idx) (q : D1.contr.Idx) : (D1.lhsIdx i q 1).val = (q ⟨0, by decide⟩).val :=
  D1.lhsIdx_val_of_single rfl i q
theorem D1_r0 (i : S2000x10.Idx) (q : D1.contr.Idx) : (D1.rhsIdx i q 0).val = (q ⟨0, by decide⟩).val :=
  D1.rhsIdx_val_of_single rfl i q
theorem D1_r1 (i : S2000x10.Idx) (q : D1.contr.Idx) : (D1.rhsIdx i q 1).val = (i 1).val := by
  unfold DotDims.rhsIdx
  rw [dif_neg (show ¬(1 : Fin S64x10.rank) ∈ D1.rhsBatch by decide), dif_pos (show (1 : Fin S64x10.rank) ∈ D1.rhsNonContracting by decide)]
  rfl

/-- Entry (r, j) of the block the second kernel stores: the three inner products of row r of the three
    feature blocks with column j of the three weight matrices, added in the kernel's order. -/
theorem proj_block (h h1 h2 : Vec Ideal S2000x64 .f32) (a b c : Vec Ideal S64x10 .f32) (r : Fin 2000) (j : Fin 10) :
    k1_pay1 (F := Ideal) h h1 h2 a b c (ix2 r j)
      = (∑ k : Fin 64, h (ix2 r k) * a (ix2 k j) + ∑ k : Fin 64, h1 (ix2 r k) * b (ix2 k j))
          + ∑ k : Fin 64, h2 (ix2 r k) * c (ix2 k j) := by
  unfold k1_pay1
  simp only [shapeCast_self]
  refine (addf_apply _ _ _).trans ?_
  refine congrArg₂ (· + ·) ((addf_apply _ _ _).trans (congrArg₂ (· + ·) ?_ ?_)) ?_
  · exact Cert.LibMatmul.matmul_rowcol D1 rfl rfl D1_l0 D1_l1 D1_r0 D1_r1 _ _ r j
  · exact Cert.LibMatmul.matmul_rowcol D1 rfl rfl D1_l0 D1_l1 D1_r0 D1_r1 _ _ r j
  · exact Cert.LibMatmul.matmul_rowcol D1 rfl rfl D1_l0 D1_l1 D1_r0 D1_r1 _ _ r j

end Cert.KernelValue

end
-- ==== Proof.ProjArray.lean ====
/-
  The final projection as a whole array.

  The second kernel runs over 50 grid points; point t reads rows 2000·t … 2000·t + 1999 of the hidden features
  and of their two aggregates and the three whole [64, 10] weight matrices, and writes rows 2000·t …
  2000·t + 1999 of the result.  The 50 row blocks tile the [100000, 10] result, so after the region it holds
  h · a + h1 · b + h2 · c entry by entry, whatever the contents of the six operand arrays when the region is
  entered.
-/
import proofs.«115325_j23390391894791_1_alg».proof.Proof.Gen.KernelIdeal.Frame
import proofs.«115325_j23390391894791_1_alg».proof.Proof.ProjBlock
import proofs.«115325_j23390391894791_1_alg».proof.Proof.Spec
import Idealize.ShloMosaic.Lib.Pipeline.Value
import Idealize.ShloMosaic.Lib.ValueIdx

noncomputable section

namespace Cert.KernelValue

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2' : (![0, 0] : Fin 2 → Nat) = fun _ => 0 := funext fun a => by fin_cases a <;> rfl

/-- The second region's index maps over its grid: the three feature blocks and the result block move down
    with the point, the three weight matrices stay. -/
theorem idx_region1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A stored block against the whole-array function: if the three feature blocks are rows 2000·tv … of
    H, H1, H2 and the weight blocks are A, B, C, the block's entry y is the projection's entry
    i = (2000·tv + y₀, y₁). -/
theorem proj_point (H H1 H2 : (⟨2, ![100000, 64]⟩ : Shape).Idx → EReal) (A B C : (⟨2, ![64, 10]⟩ : Shape).Idx → EReal)
    (h h1 h2 : Vec Ideal S2000x64 .f32) (a b c : Vec Ideal S64x10 .f32) (tv : Nat)
    (hh : ∀ (r : Fin 2000) (k : Fin 64) (p : Fin 100000), p.val = tv * 2000 + r.val → h (ix2 r k) = H (ix2 p k))
    (hh1 : ∀ (r : Fin 2000) (k : Fin 64) (p : Fin 100000), p.val = tv * 2000 + r.val → h1 (ix2 r k) = H1 (ix2 p k))
    (hh2 : ∀ (r : Fin 2000) (k : Fin 64) (p : Fin 100000), p.val = tv * 2000 + r.val → h2 (ix2 r k) = H2 (ix2 p k))
    (ha : ∀ (k : Fin 64) (j : Fin 10), a (ix2 k j) = A (ix2 k j))
    (hb : ∀ (k : Fin 64) (j : Fin 10), b (ix2 k j) = B (ix2 k j))
    (hc : ∀ (k : Fin 64) (j : Fin 10), c (ix2 k j) = C (ix2 k j))
    (y : S2000x10.Idx) (i : (⟨2, ![100000, 10]⟩ : Shape).Idx)
    (hi0 : (i 0).val = tv * 2000 + (y 0).val) (hi1 : (i 1).val = (y 1).val) :
    k1_pay1 (F := Ideal) h h1 h2 a b c y = Cert.Spec.proj H H1 H2 A B C i := by
  obtain ⟨r, j, rfl⟩ : ∃ (r : Fin 2000) (j : Fin 10), y = ix2 r j := ⟨y 0, y 1, eq_ix2 y⟩
  obtain ⟨p, j', rfl⟩ : ∃ (p : Fin 100000) (j' : Fin 10), i = ix2 p j' := ⟨i 0, i 1, eq_ix2 i⟩
  obtain rfl : j' = j := Fin.ext hi1
  rw [proj_block, Cert.Spec.proj_ix2]
  unfold Cert.Spec.projAt
  refine congrArg₂ (· + ·) (congrArg₂ (· + ·) (Finset.sum_congr rfl fun k _ => ?_) (Finset.sum_congr rfl fun k _ => ?_))
    (Finset.sum_congr rfl fun k _ => ?_)
  · rw [hh r k p hi0, ha k j']
  · rw [hh1 r k p hi0, hb k j']
  · rw [hh2 r k p hi0, hc k j']

/-- What grid point t writes back is block t of the projection of the six operand arrays. -/
theorem proj_flushed (c : Dev nD) (t : Fin cfg1.N) :
    (dat1 V c).flushed 6 t = ((cfg1.win 6).blk t).view.read (Elt Ideal)
      (Cert.Spec.proj (V c main_v1) (V c main_v14) (V c main_v27) (V c main_v29) (V c main_v31) (V c main_v33)) := by
  show (cfg1.win 6).cut (grid1.coords t) ((dat1 V c).after 6 t) = _
  rw [after1_6]
  unfold out1_6
  rw [View.canon_unit_zero hz2']
  simp only [View.ld_unit_zero (S := S2000x64) hz2', View.ld_unit_zero (S := S64x10) hz2']
  obtain ⟨e00, e01, e10, e11, e20, e21, e30, e31, e40, e41, e50, e51, e60, e61⟩ := idx_region1 t
  funext y
  refine proj_point (V c main_v1) (V c main_v14) (V c main_v27) (V c main_v29) (V c main_v31) (V c main_v33)
    (iblk1 V c 0 t) (iblk1 V c 1 t) (iblk1 V c 2 t) (iblk1 V c 3 t) (iblk1 V c 4 t) (iblk1 V c 5 t) t.val
    ?_ ?_ ?_ ?_ ?_ ?_ y _ ?_ ?_
  · intro r k p hp
    unfold iblk1
    rw [View.read_apply]
    show V c main_v1 _ = V c main_v1 _
    refine congrArg (V c main_v1) (funext fun a => Fin.ext ?_)
    match a with
    | ⟨0, _⟩ => show win1_0.index t (0 : Fin 2) * 2000 + 1 * r.val = p.val; rw [e00, hp]; omega
    | ⟨1, _⟩ => show win1_0.index t (1 : Fin 2) * 64 + 1 * k.val = k.val; rw [e01]; omega
  · intro r k p hp
    unfold iblk1
    rw [View.read_apply]
    show V c main_v14 _ = V c main_v14 _
    refine congrArg (V c main_v14) (funext fun a => Fin.ext ?_)
    match a with
    | ⟨0, _⟩ => show win1_1.index t (0 : Fin 2) * 2000 + 1 * r.val = p.val; rw [e10, hp]; omega
    | ⟨1, _⟩ => show win1_1.index t (1 : Fin 2) * 64 + 1 * k.val = k.val; rw [e11]; omega
  · intro r k p hp
    unfold iblk1
    rw [View.read_apply]
    show V c main_v27 _ = V c main_v27 _
    refine congrArg (V c main_v27) (funext fun a => Fin.ext ?_)
    match a with
    | ⟨0, _⟩ => show win1_2.index t (0 : Fin 2) * 2000 + 1 * r.val = p.val; rw [e20, hp]; omega
    | ⟨1, _⟩ => show win1_2.index t (1 : Fin 2) * 64 + 1 * k.val = k.val; rw [e21]; omega
  · intro k j
    unfold iblk1
    rw [View.read_apply]
    show V c main_v29 _ = V c main_v29 _
    refine congrArg (V c main_v29) (funext fun a => Fin.ext ?_)
    match a with
    | ⟨0, _⟩ => show win1_3.index t (0 : Fin 2) * 64 + 1 * k.val = k.val; rw [e30]; omega
    | ⟨1, _⟩ => show win1_3.index t (1 : Fin 2) * 10 + 1 * j.val = j.val; rw [e31]; omega
  · intro k j
    unfold iblk1
    rw [View.read_apply]
    show V c main_v31 _ = V c main_v31 _
    refine congrArg (V c main_v31) (funext fun a => Fin.ext ?_)
    match a with
    | ⟨0, _⟩ => show win1_4.index t (0 : Fin 2) * 64 + 1 * k.val = k.val; rw [e40]; omega
    | ⟨1, _⟩ => show win1_4.index t (1 : Fin 2) * 10 + 1 * j.val = j.val; rw [e41]; omega
  · intro k j
    unfold iblk1
    rw [View.read_apply]
    show V c main_v33 _ = V c main_v33 _
    refine congrArg (V c main_v33) (funext fun a => Fin.ext ?_)
    match a with
    | ⟨0, _⟩ => show win1_5.index t (0 : Fin 2) * 64 + 1 * k.val = k.val; rw [e50]; omega
    | ⟨1, _⟩ => show win1_5.index t (1 : Fin 2) * 10 + 1 * j.val = j.val; rw [e51]; omega
  · show win1_6.index t (0 : Fin 2) * 2000 + 1 * (y 0).val = t.val * 2000 + (y 0).val; rw [e60]; omega
  · show win1_6.index t (1 : Fin 2) * 10 + 1 * (y 1).val = (y 1).val; rw [e61]; omega

/-- An index of the result is in point t's block iff each coordinate is in the block's range on its axis. -/
theorem mem_proj_blk (t : Fin cfg1.N) (i : S100000x10.Idx) :
    i ∈ ((cfg1.win 6).blk t).view.set ↔ ∀ a : Fin 2, win1_6.index t a * S2000x10.size a ≤ (i a).val
      ∧ (i a).val < win1_6.index t a * S2000x10.size a + S2000x10.size a := by
  show i ∈ ((View.whole main_v34).slice (win1_6.rect t)).set ↔ _
  rw [View.set_slice_whole, Rect.mem_set_unit]
  exact Iff.rfl

/-- THE ARRAY the second region leaves: the projection of the six operand arrays as the region found them. -/
theorem proj_final (c : Dev nD) :
    (dat1 V c).arrAt 6 cfg1.N
      = Cert.Spec.proj (V c main_v1) (V c main_v14) (V c main_v27) (V c main_v29) (V c main_v31) (V c main_v33) :=
  (dat1 V c).arrAt_eq_of_cover 6 _ (fun t _ => proj_flushed V c t) fun i => by
    have hi0 : (i 0).val < 100000 := (i 0).isLt
    have hi1 : (i 1).val < 10 := (i 1).isLt
    have hN : cfg1.N = 50 := N_1
    let t : Fin cfg1.N := ⟨(i 0).val / 2000, by rw [hN]; omega⟩
    obtain ⟨-, -, -, -, -, -, -, -, -, -, -, -, e60, e61⟩ := idx_region1 t
    refine ⟨t, flush1_6 t, ?_⟩
    rw [mem_proj_blk]
    intro a
    match a with
    | ⟨0, _⟩ =>
      show win1_6.index t (0 : Fin 2) * 2000 ≤ (i 0).val ∧ (i 0).val < win1_6.index t (0 : Fin 2) * 2000 + 2000
      rw [e60]; show (i 0).val / 2000 * 2000 ≤ (i 0).val ∧ (i 0).val < (i 0).val / 2000 * 2000 + 2000; omega
    | ⟨1, _⟩ =>
      show win1_6.index t (1 : Fin 2) * 10 ≤ (i 1).val ∧ (i 1).val < win1_6.index t (1 : Fin 2) * 10 + 10
      rw [e61]; omega

end Cert.KernelValue

end
-- ==== Proof.KernelFold.lean ====
/-
  The contents of the idealized kernel's buffers along its run, read back to the launch memory.

  Before the first region the first-layer weights are transposed; the first region leaves the hidden layer
  h = max(x · W1ᵀ, 0); the second stretch of host operations forms the two neighbourhood aggregates of h (a row
  gather, a scaling by the edge weights and a scatter-add, twice) and cuts the output weights into three
  transposed [64, 10] parts; the second region leaves h · A + h1 · B + h2 · C.  Each step is read at the
  buffer it writes; the aggregates are kept as one function of h each and never opened.
-/
import proofs.«115325_j23390391894791_1_alg».proof.Proof.Gen.KernelIdeal.Frame
import proofs.«115325_j23390391894791_1_alg».proof.Proof.HiddenArray
import proofs.«115325_j23390391894791_1_alg».proof.Proof.ProjArray
import proofs.«115325_j23390391894791_1_alg».proof.Proof.Spec
import Idealize.ShloMosaic.Lib.StableHlo.Run
import Idealize.ShloMosaic.Lib.Pipeline.Value

set_option maxRecDepth 16384

noncomputable section

namespace Cert.KernelValue

open Cert.KernelIdeal Cert.KernelIdeal.Gen Idealize.ShloMosaic Idealize.ShloMosaic.TcCoe Idealize.ShloMosaic.ValueIdx
open Idealize.SL.Sem Idealize.ShloMosaic.StableHlo

/-- The 1-hop aggregate of the hidden features h: rows of h gathered at the (wrapped) source indices, scaled by
    the edge weights and added into the rows named by the destination indices. -/
def aggA (h : (⟨S100000x64, .f32⟩ : BufTy).Contents (Elt Ideal)) (src dst : (⟨S600000, .i32⟩ : BufTy).Contents (Elt Ideal))
    (val : (⟨S600000, .f32⟩ : BufTy).Contents (Elt Ideal)) : (⟨S100000x64, .f32⟩ : BufTy).Contents (Elt Ideal) :=
  Host.scatterAdd scatter_S100000x64_S600000x1_S600000x64_1_0_0_1
    (broadcastInDim S100000x64 ![] bcast_S_S100000x64 (constant (F := Ideal) S_ .f32 0x00000000#32))
    (broadcastInDim S600000x1 ![0] bcast_S600000_S600000x1_0 dst)
    (mulf (broadcastInDim S600000x64 ![0, 1] bcast_S600000x1_S600000x64_0_1 (broadcastInDim S600000x1 ![0] bcast_S600000_S600000x1_0 val))
      (Host.gather gather_S100000x64_S600000x1_S600000x64_1_0_n_n_0_1_164 h
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 100000#32))) src))))

/-- The 2-hop aggregate of the hidden features h, the same operations over the second edge list. -/
def aggB (h : (⟨S100000x64, .f32⟩ : BufTy).Contents (Elt Ideal)) (src dst : (⟨S1200000, .i32⟩ : BufTy).Contents (Elt Ideal))
    (val : (⟨S1200000, .f32⟩ : BufTy).Contents (Elt Ideal)) : (⟨S100000x64, .f32⟩ : BufTy).Contents (Elt Ideal) :=
  Host.scatterAdd scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 dst)
    (mulf (broadcastInDim S1200000x64 ![0, 1] bcast_S1200000x1_S1200000x64_0_1 (broadcastInDim S1200000x1 ![0] bcast_S1200000_S1200000x1_0 val))
      (Host.gather gather_S100000x64_S1200000x1_S1200000x64_1_0_n_n_0_1_164 h
        (broadcastInDim S1200000x1 ![0] bcast_S1200000_S1200000x1_0
          (select (cmpi .slt src (broadcastInDim S1200000 ![] bcast_S_S1200000 (constantI S_ 32 0#32)))
            (addi src (broadcastInDim S1200000 ![] bcast_S_S1200000 (constantI S_ 32 100000#32))) src))))

variable (m : (ℓ : Loc nD τ sig) → Buf (Elt Ideal) ℓ) (ρ : Dev nD → PrngReg)

/-! ## Before the first region -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl

/-- The first region finds the first-layer weights transposed. -/
theorem W1_v0 (c : Dev nD) : W1 m ρ c (Proc.devRef .tc main_v0)
    = transpose S500x64 [1, 0] (m ((c : Thread nD τ).loc main_arg1)) transposes_S64x500_S500x64_1_0 := by
  show StableHlo.after hostOps0 (W0 m ρ c) (Proc.devRef .tc main_v0) = _
  after_results_simp <;> rfl

/-! ## After the first region -/

/-- The first region leaves the hidden layer of the features and the transposed first-layer weights. -/
theorem W2_v1 (c : Dev nD) : W2 m ρ c (Proc.devRef .tc main_v1)
    = Cert.Spec.hidden (m ((c : Thread nD τ).loc main_arg0))
        (transpose S500x64 [1, 0] (m ((c : Thread nD τ).loc main_arg1)) transposes_S64x500_S500x64_1_0) :=
  (W2_arr m ρ c 2).trans ((hidden_final (V1 m ρ) c).trans
    (congrArg₂ Cert.Spec.hidden (W1_arg0 m ρ c) (W1_v0 m ρ c)))

/-- The first region and the operations before it leave the other arguments as launched. -/
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results_simp <;> rfl)
theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results_simp <;> rfl)
theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results_simp <;> rfl)
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp <;> rfl)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)

/-! ## Before the second region -/

/-- The second stretch of host operations does not write the hidden layer. -/
theorem W3_v1 (c : Dev nD) : W3 m ρ c (Proc.devRef .tc main_v1) = W2 m ρ c (Proc.devRef .tc main_v1) := by
  show StableHlo.after hostOps1 (W2 m ρ c) (Proc.devRef .tc main_v1) = _
  generalize W2 m ρ c = W
  after_results_simp <;> rfl

/-- It forms the 1-hop aggregate of the hidden layer, -/
theorem W3_v14 (c : Dev nD) : W3 m ρ c (Proc.devRef .tc main_v14)
    = aggA (W2 m ρ c (Proc.devRef .tc main_v1)) (W2 m ρ c (Proc.devRef .tc main_arg3))
        (W2 m ρ c (Proc.devRef .tc main_arg4)) (W2 m ρ c (Proc.devRef .tc main_arg5)) := by
  show StableHlo.after hostOps1 (W2 m ρ c) (Proc.devRef .tc main_v14) = _
  generalize W2 m ρ c = W
  after_results_simp <;> rfl

/-- the 2-hop aggregate, -/
theorem W3_v27 (c : Dev nD) : W3 m ρ c (Proc.devRef .tc main_v27)
    = aggB (W2 m ρ c (Proc.devRef .tc main_v1)) (W2 m ρ c (Proc.devRef .tc main_arg6))
        (W2 m ρ c (Proc.devRef .tc main_arg7)) (W2 m ρ c (Proc.devRef .tc main_arg8)) := by
  show StableHlo.after hostOps1 (W2 m ρ c) (Proc.devRef .tc main_v27) = _
  generalize W2 m ρ c = W
  after_results_simp <;> rfl

/-- and the three transposed parts of the output weights. -/
theorem W3_v29 (c : Dev nD) : W3 m ρ c (Proc.devRef .tc main_v29)
    = transpose S64x10 [1, 0] (extractStridedSlice S10x64 ![0, 0] (W2 m ρ c (Proc.devRef .tc main_arg2)) slices_S10x192_S10x64_0_0)
        transposes_S10x64_S64x10_1_0 := by
  show StableHlo.after hostOps1 (W2 m ρ c) (Proc.devRef .tc main_v29) = _
  generalize W2 m ρ c = W
  after_results_simp <;> rfl
theorem W3_v31 (c : Dev nD) : W3 m ρ c (Proc.devRef .tc main_v31)
    = transpose S64x10 [1, 0] (extractStridedSlice S10x64 ![0, 64] (W2 m ρ c (Proc.devRef .tc main_arg2)) slices_S10x192_S10x64_0_64)
        transposes_S10x64_S64x10_1_0 := by
  show StableHlo.after hostOps1 (W2 m ρ c) (Proc.devRef .tc main_v31) = _
  generalize W2 m ρ c = W
  after_results_simp <;> rfl
theorem W3_v33 (c : Dev nD) : W3 m ρ c (Proc.devRef .tc main_v33)
    = transpose S64x10 [1, 0] (extractStridedSlice S10x64 ![0, 128] (W2 m ρ c (Proc.devRef .tc main_arg2)) slices_S10x192_S10x64_0_128)
        transposes_S10x64_S64x10_1_0 := by
  show StableHlo.after hostOps1 (W2 m ρ c) (Proc.devRef .tc main_v33) = _
  generalize W2 m ρ c = W
  after_results_simp <;> rfl

/-! ## After the second region -/

/-- The second region leaves the projection of its six operand arrays as it found them. -/
theorem W4_v34 (c : Dev nD) : W4 m ρ c (Proc.devRef .tc main_v34)
    = Cert.Spec.proj (W3 m ρ c (Proc.devRef .tc main_v1)) (W3 m ρ c (Proc.devRef .tc main_v14))
        (W3 m ρ c (Proc.devRef .tc main_v27)) (W3 m ρ c (Proc.devRef .tc main_v29))
        (W3 m ρ c (Proc.devRef .tc main_v31)) (W3 m ρ c (Proc.devRef .tc main_v33)) :=
  (W4_arr m ρ c 6).trans (proj_final (V3 m ρ) c)

/-- THE RESULT of the idealized kernel as a function of the launch memory: with h the hidden layer of the
    features and the transposed first-layer weights, the projection of h and of its two aggregates by the three
    transposed parts of the output weights. -/
theorem kernel_out (c : Dev nD) : W4 m ρ c (Proc.devRef .tc main_v34)
    = Cert.Spec.proj
        (Cert.Spec.hidden (m ((c : Thread nD τ).loc main_arg0))
          (transpose S500x64 [1, 0] (m ((c : Thread nD τ).loc main_arg1)) transposes_S64x500_S500x64_1_0))
        (aggA (Cert.Spec.hidden (m ((c : Thread nD τ).loc main_arg0))
            (transpose S500x64 [1, 0] (m ((c : Thread nD τ).loc main_arg1)) transposes_S64x500_S500x64_1_0))
          (m ((c : Thread nD τ).loc main_arg3)) (m ((c : Thread nD τ).loc main_arg4)) (m ((c : Thread nD τ).loc main_arg5)))
        (aggB (Cert.Spec.hidden (m ((c : Thread nD τ).loc main_arg0))
            (transpose S500x64 [1, 0] (m ((c : Thread nD τ).loc main_arg1)) transposes_S64x500_S500x64_1_0))
          (m ((c : Thread nD τ).loc main_arg6)) (m ((c : Thread nD τ).loc main_arg7)) (m ((c : Thread nD τ).loc main_arg8)))
        (transpose S64x10 [1, 0] (extractStridedSlice S10x64 ![0, 0] (m ((c : Thread nD τ).loc main_arg2)) slices_S10x192_S10x64_0_0)
          transposes_S10x64_S64x10_1_0)
        (transpose S64x10 [1, 0] (extractStridedSlice S10x64 ![0, 64] (m ((c : Thread nD τ).loc main_arg2)) slices_S10x192_S10x64_0_64)
          transposes_S10x64_S64x10_1_0)
        (transpose S64x10 [1, 0] (extractStridedSlice S10x64 ![0, 128] (m ((c : Thread nD τ).loc main_arg2)) slices_S10x192_S10x64_0_128)
          transposes_S10x64_S64x10_1_0) := by
  rw [W4_v34, W3_v1, W3_v14, W3_v27, W3_v29, W3_v31, W3_v33, W2_v1, W2_arg2, W2_arg3, W2_arg4, W2_arg5, W2_arg6, W2_arg7, W2_arg8]

end Cert.KernelValue

end
-- ==== Proof.LibConcatCols.lean ====
/-
  Rank-2 arrays joined along their columns, read at an entry.

  When arrays of a common row count `R` and of widths `c₀, c₁, …` are laid side by side, the entry at row `r` and
  column `pre + q`, where `pre = c₀ + … + c_{k-1}` and `q < c_k`, is piece `k`'s entry `(r, q)`.  Two joins used
  by graph-network layers follow: seven pieces of widths 128, 128, 16, 8, 8, 8, 8 hold the first two pieces in
  their first 256 columns and, from column 256 on, the join of the last five pieces; four pieces of widths
  128, 128, 8, 8 hold the first two in their first 256 columns and then the join of the last two.
-/
import Idealize.ShloMosaic.Lib.Pipeline.Value
import Idealize.ShloMosaic.Lib.ValueIdx

namespace Cert.Lib.ConcatCols

open Idealize.ShloMosaic Idealize.ShloMosaic.ValueIdx

variable {α : Type}

/-- Pieces joined along the columns, read at `(r, col)` with `col = pre + q`: piece `k` at `(r, q)`, where `pre`
    is the total width of the pieces before it. -/
theorem cat_cols_apply {R C : ℕ} (xs : List ((s : Shape) × (s.Idx → α)))
    (h : Shape.Concatenates (xs.map (·.1)) ⟨2, ![R, C]⟩ 1)
    (k : ℕ) (hk : k < xs.length) {c₁ : ℕ} (x₁ : (⟨2, ![R, c₁]⟩ : Shape).Idx → α) (hxk : xs[k] = ⟨⟨2, ![R, c₁]⟩, x₁⟩)
    (pre : ℕ)
    (hpre : (((xs.take k).map (·.1)).map fun s => if h : s.rank = 2 then s.size ((1 : Fin 2).cast h.symm) else 0).sum = pre)
    (r : Fin R) (q : Fin c₁) (col : Fin C) (hcol : pre + q.val = col.val) :
    concatenate ⟨2, ![R, C]⟩ 1 xs h (ix2 r col) = x₁ (ix2 r q) :=
  concatenate_apply_piece (t := ⟨2, ![R, C]⟩) 1 xs h (ix2 r col) k hk ⟨2, ![R, c₁]⟩ x₁ hxk rfl pre hpre (ix2 r q)
    (fun b hb => match b, hb with
      | ⟨0, _⟩, _ => rfl
      | ⟨1, _⟩, hb => absurd (Fin.ext rfl) hb) hcol

section seven

variable {R : ℕ} (q1 q2 : (⟨2, ![R, 128]⟩ : Shape).Idx → α) (p1 : (⟨2, ![R, 16]⟩ : Shape).Idx → α)
  (p2 p3 p4 p5 : (⟨2, ![R, 8]⟩ : Shape).Idx → α)
  (h7 : Shape.Concatenates (([⟨⟨2, ![R, 128]⟩, q1⟩, ⟨⟨2, ![R, 128]⟩, q2⟩, ⟨⟨2, ![R, 16]⟩, p1⟩, ⟨⟨2, ![R, 8]⟩, p2⟩,
    ⟨⟨2, ![R, 8]⟩, p3⟩, ⟨⟨2, ![R, 8]⟩, p4⟩, ⟨⟨2, ![R, 8]⟩, p5⟩] : List ((s : Shape) × (s.Idx → α))).map (·.1)) ⟨2, ![R, 304]⟩ 1)
  (h5 : Shape.Concatenates (([⟨⟨2, ![R, 16]⟩, p1⟩, ⟨⟨2, ![R, 8]⟩, p2⟩,
    ⟨⟨2, ![R, 8]⟩, p3⟩, ⟨⟨2, ![R, 8]⟩, p4⟩, ⟨⟨2, ![R, 8]⟩, p5⟩] : List ((s : Shape) × (s.Idx → α))).map (·.1)) ⟨2, ![R, 48]⟩ 1)

/-- Columns 0 … 127 of the seven-piece join are the first piece. -/
theorem cat7_first (r : Fin R) (k : Fin 128) :
    concatenate ⟨2, ![R, 304]⟩ 1 [⟨⟨2, ![R, 128]⟩, q1⟩, ⟨⟨2, ![R, 128]⟩, q2⟩, ⟨⟨2, ![R, 16]⟩, p1⟩, ⟨⟨2, ![R, 8]⟩, p2⟩,
      ⟨⟨2, ![R, 8]⟩, p3⟩, ⟨⟨2, ![R, 8]⟩, p4⟩, ⟨⟨2, ![R, 8]⟩, p5⟩] h7 (ix2 r ⟨k.val, by omega⟩) = q1 (ix2 r k) :=
  cat_cols_apply _ h7 0 (by simp) q1 rfl 0 rfl r k _ (by simp)

/-- Columns 128 … 255 are the second piece. -/
theorem cat7_second (r : Fin R) (k : Fin 128) :
    concatenate ⟨2, ![R, 304]⟩ 1 [⟨⟨2, ![R, 128]⟩, q1⟩, ⟨⟨2, ![R, 128]⟩, q2⟩, ⟨⟨2, ![R, 16]⟩, p1⟩, ⟨⟨2, ![R, 8]⟩, p2⟩,
      ⟨⟨2, ![R, 8]⟩, p3⟩, ⟨⟨2, ![R, 8]⟩, p4⟩, ⟨⟨2, ![R, 8]⟩, p5⟩] h7 (ix2 r ⟨128 + k.val, by omega⟩) = q2 (ix2 r k) :=
  cat_cols_apply _ h7 1 (by simp) q2 rfl 128 rfl r k _ rfl

/-- From column 256 on the seven-piece join is the join of its last five pieces. -/
theorem cat7_tail (r : Fin R) (k : Fin 48) :
    concatenate ⟨2, ![R, 304]⟩ 1 [⟨⟨2, ![R, 128]⟩, q1⟩, ⟨⟨2, ![R, 128]⟩, q2⟩, ⟨⟨2, ![R, 16]⟩, p1⟩, ⟨⟨2, ![R, 8]⟩, p2⟩,
      ⟨⟨2, ![R, 8]⟩, p3⟩, ⟨⟨2, ![R, 8]⟩, p4⟩, ⟨⟨2, ![R, 8]⟩, p5⟩] h7 (ix2 r ⟨256 + k.val, by omega⟩)
    = concatenate ⟨2, ![R, 48]⟩ 1 [⟨⟨2, ![R, 16]⟩, p1⟩, ⟨⟨2, ![R, 8]⟩, p2⟩,
      ⟨⟨2, ![R, 8]⟩, p3⟩, ⟨⟨2, ![R, 8]⟩, p4⟩, ⟨⟨2, ![R, 8]⟩, p5⟩] h5 (ix2 r k) := by
  rcases (show k.val < 16 ∨ (16 ≤ k.val ∧ k.val < 24) ∨ (24 ≤ k.val ∧ k.val < 32) ∨ (32 ≤ k.val ∧ k.val < 40)
      ∨ (40 ≤ k.val ∧ k.val < 48) by omega) with h | h | h | h | h
  · exact (cat_cols_apply _ h7 2 (by simp) p1 rfl 256 rfl r ⟨k.val, h⟩ _ rfl).trans
      (cat_cols_apply _ h5 0 (by simp) p1 rfl 0 rfl r ⟨k.val, h⟩ k (by simp)).symm
  · exact (cat_cols_apply _ h7 3 (by simp) p2 rfl 272 rfl r ⟨k.val - 16, by omega⟩ _ (by show 272 + (k.val - 16) = 256 + k.val; omega)).trans
      (cat_cols_apply _ h5 1 (by simp) p2 rfl 16 rfl r ⟨k.val - 16, by omega⟩ k (by show 16 + (k.val - 16) = k.val; omega)).symm
  · exact (cat_cols_apply _ h7 4 (by simp) p3 rfl 280 rfl r ⟨k.val - 24, by omega⟩ _ (by show 280 + (k.val - 24) = 256 + k.val; omega)).trans
      (cat_cols_apply _ h5 2 (by simp) p3 rfl 24 rfl r ⟨k.val - 24, by omega⟩ k (by show 24 + (k.val - 24) = k.val; omega)).symm
  · exact (cat_cols_apply _ h7 5 (by simp) p4 rfl 288 rfl r ⟨k.val - 32, by omega⟩ _ (by show 288 + (k.val - 32) = 256 + k.val; omega)).trans
      (cat_cols_apply _ h5 3 (by simp) p4 rfl 32 rfl r ⟨k.val - 32, by omega⟩ k (by show 32 + (k.val - 32) = k.val; omega)).symm
  · exact (cat_cols_apply _ h7 6 (by simp) p5 rfl 296 rfl r ⟨k.val - 40, by omega⟩ _ (by show 296 + (k.val - 40) = 256 + k.val; omega)).trans
      (cat_cols_apply _ h5 4 (by simp) p5 rfl 40 rfl r ⟨k.val - 40, by omega⟩ k (by show 40 + (k.val - 40) = k.val; omega)).symm

end seven

section four

variable {R : ℕ} (q1 q2 : (⟨2, ![R, 128]⟩ : Shape).Idx → α) (p1 p2 : (⟨2, ![R, 8]⟩ : Shape).Idx → α)
  (h4 : Shape.Concatenates (([⟨⟨2, ![R, 128]⟩, q1⟩, ⟨⟨2, ![R, 128]⟩, q2⟩, ⟨⟨2, ![R, 8]⟩, p1⟩, ⟨⟨2, ![R, 8]⟩, p2⟩]
    : List ((s : Shape) × (s.Idx → α))).map (·.1)) ⟨2, ![R, 272]⟩ 1)
  (h2 : Shape.Concatenates (([⟨⟨2, ![R, 8]⟩, p1⟩, ⟨⟨2, ![R, 8]⟩, p2⟩] : List ((s : Shape) × (s.Idx → α))).map (·.1)) ⟨2, ![R, 16]⟩ 1)

/-- Columns 0 … 127 of the four-piece join are the first piece. -/
theorem cat4_first (r : Fin R) (k : Fin 128) :
    concatenate ⟨2, ![R, 272]⟩ 1 [⟨⟨2, ![R, 128]⟩, q1⟩, ⟨⟨2, ![R, 128]⟩, q2⟩, ⟨⟨2, ![R, 8]⟩, p1⟩, ⟨⟨2, ![R, 8]⟩, p2⟩] h4
      (ix2 r ⟨k.val, by omega⟩) = q1 (ix2 r k) :=
  cat_cols_apply _ h4 0 (by simp) q1 rfl 0 rfl r k _ (by simp)

/-- Columns 128 … 255 are the second piece. -/
theorem cat4_second (r : Fin R) (k : Fin 128) :
    concatenate ⟨2, ![R, 272]⟩ 1 [⟨⟨2, ![R, 128]⟩, q1⟩, ⟨⟨2, ![R, 128]⟩, q2⟩, ⟨⟨2, ![R, 8]⟩, p1⟩, ⟨⟨2, ![R, 8]⟩, p2⟩] h4
      (ix2 r ⟨128 + k.val, by omega⟩) = q2 (ix2 r k) :=
  cat_cols_apply _ h4 1 (by simp) q2 rfl 128 rfl r k _ rfl

/-- From column 256 on the four-piece join is the join of its last two pieces. -/
theorem cat4_tail (r : Fin R) (k : Fin 16) :
    concatenate ⟨2, ![R, 272]⟩ 1 [⟨⟨2, ![R, 128]⟩, q1⟩, ⟨⟨2, ![R, 128]⟩, q2⟩, ⟨⟨2, ![R, 8]⟩, p1⟩, ⟨⟨2, ![R, 8]⟩, p2⟩] h4
      (ix2 r ⟨256 + k.val, by omega⟩)
    = concatenate ⟨2, ![R, 16]⟩ 1 [⟨⟨2, ![R, 8]⟩, p1⟩, ⟨⟨2, ![R, 8]⟩, p2⟩] h2 (ix2 r k) := by
  rcases (show k.val < 8 ∨ (8 ≤ k.val ∧ k.val < 16) by omega) with h | h
  · exact (cat_cols_apply _ h4 2 (by simp) p1 rfl 256 rfl r ⟨k.val, h⟩ _ rfl).trans
      (cat_cols_apply _ h2 0 (by simp) p1 rfl 0 rfl r ⟨k.val, h⟩ k (by simp)).symm
  · exact (cat_cols_apply _ h4 3 (by simp) p2 rfl 264 rfl r ⟨k.val - 8, by omega⟩ _ (by show 264 + (k.val - 8) = 256 + k.val; omega)).trans
      (cat_cols_apply _ h2 1 (by simp) p2 rfl 8 rfl r ⟨k.val - 8, by omega⟩ k (by show 8 + (k.val - 8) = k.val; omega)).symm

end four

end Cert.Lib.ConcatCols
-- ==== Proof.RefBridge.lean ====
/-
  The reference program's hidden layer and final projection, entry by entry.

  The hidden layer is h = max(x · W1ᵀ, 0).  The result is the product of the join [h, h1, h2] of three
  [100000, 64] arrays along their columns with the transpose of a [10, 192] matrix; entry (p, j) is a sum of
  192 products, which is split into the three sums of 64 products that belong to h, h1 and h2.  Only
  associativity of addition on the extended reals is used; the two aggregates h1, h2 are never opened.
-/
import proofs.«115325_j23390391894791_1_alg».proof.Proof.Gen.ReferenceIdeal.Read
import proofs.«115325_j23390391894791_1_alg».proof.Proof.Spec
import proofs.«115325_j23390391894791_1_alg».proof.Proof.LibConcatCols

noncomputable section

namespace Cert.RefBridge

open Cert.ReferenceIdeal Cert.ReferenceIdeal.Read Idealize.ShloMosaic Idealize.ShloMosaic.ValueIdx

/-- The hidden layer of the reference: entry (p, c) is the maximum of 0 and the inner product of row p of x with
    row c of the [64, 500] weights, that is, with column c of their transpose. -/
theorem ref_hidden (x0 : (⟨S100000x500, .f32⟩ : BufTy).Contents (Elt Ideal))
    (x1 : (⟨S64x500, .f32⟩ : BufTy).Contents (Elt Ideal)) :
    val_main_v2 (F := Ideal) x0 x1 = Cert.Spec.hidden x0 (Cert.Spec.wT x1) := by
  funext i
  obtain ⟨p, c, rfl⟩ : ∃ (p : Fin 100000) (c : Fin 64), i = ix2 p c := ⟨i 0, i 1, eq_ix2 i⟩
  rw [val_main_v2_apply, val_main_v1_apply, val_main_call0_v0_apply, val_main_call0_cst_apply,
    Cert.Spec.hidden_ix2]
  unfold Cert.Spec.hiddenAt
  rw [Ideal.maximumf_def, Ideal.ofBits_def, Ideal.ofBits_zero_f32]
  congr 1
  refine Finset.sum_congr rfl fun k _ => ?_
  have el : lidx_main_v1 (ix2 p c) k = ix2 p k := funext fun a => Fin.ext (by
    match a with
    | ⟨0, _⟩ => rfl
    | ⟨1, _⟩ => rfl)
  have er : ridx_main_v1 (ix2 p c) k = ix2 k c := funext fun a => Fin.ext (by
    match a with
    | ⟨0, _⟩ => rfl
    | ⟨1, _⟩ => rfl)
  have et : idx_main_v0 (ix2 k c) = ix2 c k := funext fun a => Fin.ext (by
    match a with
    | ⟨0, _⟩ => rfl
    | ⟨1, _⟩ => rfl)
  rw [el, er, val_main_v0_apply, et]
  rfl

/-- A sum of 192 terms is the sum of its first 64, its next 64 and its last 64 terms, added in this order. -/
private theorem sum_fin192 (f : Fin 192 → EReal) :
    ∑ k : Fin 192, f k
      = (∑ k : Fin 64, f ⟨k.val, by omega⟩ + ∑ k : Fin 64, f ⟨64 + k.val, by omega⟩)
        + ∑ k : Fin 64, f ⟨128 + k.val, by omega⟩ := by
  have h1 := Fin.sum_univ_add (a := 128) (b := 64) (fun i : Fin (128 + 64) => f i)
  have h2 := Fin.sum_univ_add (a := 64) (b := 64) (fun i : Fin (64 + 64) => f (Fin.castAdd 64 i))
  exact h1.trans (congrArg (· + ∑ k : Fin 64, f ⟨128 + k.val, by omega⟩) h2)

/-- The result of the reference: entry (p, j) of [h, h1, h2] · Wfᵀ is the sum over the 64 columns of h, of h1 and
    of h2 of the entry in row p times the entry of row j of Wf in the matching column (columns 0 …, 64 … and
    128 … of Wf). -/
theorem ref_proj (x0 : (⟨S100000x500, .f32⟩ : BufTy).Contents (Elt Ideal))
    (x1 : (⟨S64x500, .f32⟩ : BufTy).Contents (Elt Ideal))
    (x2 : (⟨S10x192, .f32⟩ : BufTy).Contents (Elt Ideal))
    (x3 x4 : (⟨S600000, .i32⟩ : BufTy).Contents (Elt Ideal))
    (x5 : (⟨S600000, .f32⟩ : BufTy).Contents (Elt Ideal))
    (x6 x7 : (⟨S1200000, .i32⟩ : BufTy).Contents (Elt Ideal))
    (x8 : (⟨S1200000, .f32⟩ : BufTy).Contents (Elt Ideal)) :
    val_main_v31 (F := Ideal) x0 x1 x2 x3 x4 x5 x6 x7 x8
      = Cert.Spec.proj (val_main_v2 (F := Ideal) x0 x1) (val_main_v15 (F := Ideal) x0 x1 x3 x4 x5)
          (val_main_v28 (F := Ideal) x0 x1 x6 x7 x8)
          (Cert.Spec.wPart 0 (by omega) x2) (Cert.Spec.wPart 64 (by omega) x2) (Cert.Spec.wPart 128 (by omega) x2) := by
  funext i
  obtain ⟨p, j, rfl⟩ : ∃ (p : Fin 100000) (j : Fin 10), i = ix2 p j := ⟨i 0, i 1, eq_ix2 i⟩
  rw [val_main_v31_apply, Cert.Spec.proj_ix2]
  unfold Cert.Spec.projAt val_main_v29
  generalize val_main_v2 (F := Ideal) x0 x1 = h
  generalize val_main_v15 (F := Ideal) x0 x1 x3 x4 x5 = h1
  generalize val_main_v28 (F := Ideal) x0 x1 x6 x7 x8 = h2
  -- the right factor: the transposed weights at (k, j) are the weights at (j, k)
  have er : ∀ kk : Fin 192, val_main_v30 (F := Ideal) x2 (ridx_main_v31 (ix2 p j) kk) = x2 (ix2 j kk) := by
    intro kk
    have e1 : ridx_main_v31 (ix2 p j) kk = ix2 kk j := funext fun a => Fin.ext (by
      match a with
      | ⟨0, _⟩ => rfl
      | ⟨1, _⟩ => rfl)
    have e2 : idx_main_v30 (ix2 kk j) = ix2 j kk := funext fun a => Fin.ext (by
      match a with
      | ⟨0, _⟩ => rfl
      | ⟨1, _⟩ => rfl)
    rw [e1, val_main_v30_apply, e2]
  -- the left factor is read in row p
  have el : ∀ kk : Fin 192, lidx_main_v31 (ix2 p j) kk = ix2 p kk := fun kk => funext fun a => Fin.ext (by
    match a with
    | ⟨0, _⟩ => rfl
    | ⟨1, _⟩ => rfl)
  refine (sum_fin192 _).trans ?_
  refine congrArg₂ (· + ·) (congrArg₂ (· + ·) ?_ ?_) ?_
  · refine Finset.sum_congr rfl fun k _ => ?_
    beta_reduce
    rw [el, er]
    refine congrArg₂ (· * ·)
      (Cert.Lib.ConcatCols.cat_cols_apply _ _ 0 (by simp) h rfl 0 rfl p k _ (by simp)) ?_
    exact congrArg x2 (funext fun a => Fin.ext (by
      match a with
      | ⟨0, _⟩ => rfl
      | ⟨1, _⟩ => exact (Nat.zero_add _).symm))
  · refine Finset.sum_congr rfl fun k _ => ?_
    beta_reduce
    rw [el, er]
    exact congrArg₂ (· * ·)
      (Cert.Lib.ConcatCols.cat_cols_apply _ _ 1 (by simp) h1 rfl 64 rfl p k _ rfl) rfl
  · refine Finset.sum_congr rfl fun k _ => ?_
    beta_reduce
    rw [el, er]
    exact congrArg₂ (· * ·)
      (Cert.Lib.ConcatCols.cat_cols_apply _ _ 2 (by simp) h2 rfl 128 rfl p k _ rfl) rfl

end Cert.RefBridge

end
-- ==== Proof.Bridge.lean ====
/-
  The idealized kernel's result is the reference's result, as functions of the nine arguments.

  Both are the projection h · A + h1 · B + h2 · C of the hidden layer h = max(x · W1ᵀ, 0) and of its two
  aggregates.  The two programs transpose the first-layer weights by the same operation; they form the
  aggregates by the same operations, so equal hidden layers give equal aggregates; and the kernel's three
  transposed slices of the output weights are the three column parts the reference's single product reads.
-/
import proofs.«115325_j23390391894791_1_alg».proof.Proof.KernelFold
import proofs.«115325_j23390391894791_1_alg».proof.Proof.RefBridge

set_option maxRecDepth 16384

noncomputable section

namespace Cert.KernelValue

open Cert.KernelIdeal Cert.KernelIdeal.Gen Idealize.ShloMosaic Idealize.ShloMosaic.TcCoe Idealize.ShloMosaic.ValueIdx
open Idealize.SL.Sem

/-- The transposed first-layer weights, entry by entry. -/
theorem transpose_w1 (x1 : (⟨S64x500, .f32⟩ : BufTy).Contents (Elt Ideal)) :
    transpose S500x64 [1, 0] x1 transposes_S64x500_S500x64_1_0 = Cert.Spec.wT x1 := by
  funext i
  exact transpose_apply [1, 0] x1 transposes_S64x500_S500x64_1_0 i (ix2 (i 1) (i 0)) (fun b => match b with
    | ⟨0, _⟩ => rfl
    | ⟨1, _⟩ => rfl)

/-- A transposed 64-column slice of the output weights is the part of them that starts at that column. -/
theorem transpose_part (off : Nat) (hoff : off + 64 ≤ 192) (x2 : (⟨S10x192, .f32⟩ : BufTy).Contents (Elt Ideal))
    (hs : S10x192.Slices ![0, off] S10x64) :
    transpose S64x10 [1, 0] (extractStridedSlice S10x64 ![0, off] x2 hs) transposes_S10x64_S64x10_1_0
      = Cert.Spec.wPart off hoff x2 := by
  funext i
  refine (transpose_apply [1, 0] _ transposes_S10x64_S64x10_1_0 i (ix2 (i 1) (i 0)) (fun b => match b with
    | ⟨0, _⟩ => rfl
    | ⟨1, _⟩ => rfl)).trans ?_
  refine extractStridedSlice_apply ![0, off] x2 hs (ix2 (i 1) (i 0)) _ (fun a => ?_)
  match a with
  | ⟨0, _⟩ => show (i 1).val = 0 + (i 1).val; omega
  | ⟨1, _⟩ => rfl

/-- The kernel's 1-hop aggregate of the reference's hidden layer is the reference's 1-hop aggregate: the same
    operations, one after the other. -/
theorem aggA_ref (x0 : (⟨S100000x500, .f32⟩ : BufTy).Contents (Elt Ideal)) (x1 : (⟨S64x500, .f32⟩ : BufTy).Contents (Elt Ideal))
    (x3 x4 : (⟨S600000, .i32⟩ : BufTy).Contents (Elt Ideal)) (x5 : (⟨S600000, .f32⟩ : BufTy).Contents (Elt Ideal)) :
    aggA (Cert.ReferenceIdeal.Read.val_main_v2 (F := Ideal) x0 x1) x3 x4 x5
      = Cert.ReferenceIdeal.Read.val_main_v15 (F := Ideal) x0 x1 x3 x4 x5 := rfl

/-- The same for the 2-hop aggregate. -/
theorem aggB_ref (x0 : (⟨S100000x500, .f32⟩ : BufTy).Contents (Elt Ideal)) (x1 : (⟨S64x500, .f32⟩ : BufTy).Contents (Elt Ideal))
    (x6 x7 : (⟨S1200000, .i32⟩ : BufTy).Contents (Elt Ideal)) (x8 : (⟨S1200000, .f32⟩ : BufTy).Contents (Elt Ideal)) :
    aggB (Cert.ReferenceIdeal.Read.val_main_v2 (F := Ideal) x0 x1) x6 x7 x8
      = Cert.ReferenceIdeal.Read.val_main_v28 (F := Ideal) x0 x1 x6 x7 x8 := rfl

variable (m : (ℓ : Loc nD τ sig) → Buf (Elt Ideal) ℓ) (ρ : Dev nD → PrngReg)

/-- THE BRIDGE: what the idealized kernel leaves in its result buffer is the reference's last stage at the
    kernel's nine argument arrays. -/
theorem kernel_eq_ref (c : Dev nD) : W4 m ρ c (Proc.devRef .tc main_v34)
    = Cert.ReferenceIdeal.Read.val_main_v31 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) := by
  rw [kernel_out, Cert.RefBridge.ref_proj, transpose_w1, ← Cert.RefBridge.ref_hidden, aggA_ref, aggB_ref,
    transpose_part 0 (by omega), transpose_part 64 (by omega), transpose_part 128 (by omega)]

end Cert.KernelValue

end
-- ==== Proof.lean ====
/-
  The certificate of a two-layer graph network's forward pass against its plain reference.

  Both programs compute, from node features x [100000, 500], first-layer weights W1 [64, 500], output weights
  Wf [10, 192] and two weighted edge lists, the hidden features h = max(x · W1ᵀ, 0), the two neighbourhood
  aggregates h1, h2 of h (rows of h gathered at the edges' sources, scaled by the edge weights and added into the
  rows of the edges' destinations), and the result.  The reference joins [h, h1, h2] along the columns and
  multiplies by Wfᵀ; the kernel computes h in one tiled region, the aggregates on the host by the reference's own
  operations, and in a second tiled region h · Wf₁ᵀ + h1 · Wf₂ᵀ + h2 · Wf₃ᵀ over the three 64-column parts of Wf.
  On the extended reals a sum of 192 products is the sum of its three runs of 64 products — associativity of
  addition alone — so the two results agree entry by entry for all inputs; the precondition is not used.

  The three frames are the generated ones (the reference's is its generated run with the result dropped); the
  idealization rewrote nothing, so the preservation claim is trivial.
-/
import proofs.«115325_j23390391894791_1_alg».proof.Defs
import proofs.«115325_j23390391894791_1_alg».proof.Proof.Gen.Kernel
import proofs.«115325_j23390391894791_1_alg».proof.Proof.Gen.Kernel.Skeleton
import proofs.«115325_j23390391894791_1_alg».proof.Proof.Gen.Kernel.Launch
import proofs.«115325_j23390391894791_1_alg».proof.Proof.Gen.Kernel.Points
import proofs.«115325_j23390391894791_1_alg».proof.Proof.Gen.Kernel.Frame
import proofs.«115325_j23390391894791_1_alg».proof.Proof.Gen.KernelIdeal
import proofs.«115325_j23390391894791_1_alg».proof.Proof.Gen.KernelIdeal.Skeleton
import proofs.«115325_j23390391894791_1_alg».proof.Proof.Gen.KernelIdeal.Launch
import proofs.«115325_j23390391894791_1_alg».proof.Proof.Gen.KernelIdeal.Points
import proofs.«115325_j23390391894791_1_alg».proof.Proof.Gen.KernelIdeal.Frame
import proofs.«115325_j23390391894791_1_alg».proof.Proof.Gen.ReferenceIdeal
import proofs.«115325_j23390391894791_1_alg».proof.Proof.Gen.ReferenceIdeal.Run
import proofs.«115325_j23390391894791_1_alg».proof.Proof.Gen.ReferenceIdeal.Read
import proofs.«115325_j23390391894791_1_alg».proof.Proof.Gen.Pre_finite_inputs
import proofs.«115325_j23390391894791_1_alg».proof.Proof.KernelRun
import proofs.«115325_j23390391894791_1_alg».proof.Proof.Bridge
import Idealize.ShloMosaic.Adequacy
import Idealize.ShloMosaic.Init

noncomputable section

namespace Cert.Proof

open Idealize.ShloMosaic Idealize.ShloMosaic.TcCoe Idealize.SL.Sem

/-- The kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the idealized kernel and the idealized reference, run from memories that agree on the
    nine arguments, end with the same result: the kernel's result buffer holds the reference's last stage at
    the kernel's arguments, and the reference's run ends at that stage of its own, equal, arguments. -/
theorem algebraic : Cert.algebraic_KernelIdeal_ReferenceIdeal := by
  intro m ρ m' ρ' _ hagree
  refine ⟨fun c => Cert.KernelIdeal.Gen.W4 m ρ c (Proc.devRef .tc Cert.KernelIdeal.main_v34),
    Cert.KernelValue.run_out m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v31_eq, e0, e1, e2, e3, e4, e5, e6, e7, e8]
  exact (Cert.KernelValue.kernel_eq_ref m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
